-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x1600000 : Shape := ⟨2, ![2, 1600000]⟩
abbrev S1433x64 : Shape := ⟨2, ![1433, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x64 : S_.BroadcastsInDim S1433x64 (![] : Fin 0 → Fin S1433x64.rank)
  reducesTo_S1433x64_S_d0_1 : S1433x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S64 .f32) (main_arg6 : FVec F S64x7 .f32) (main_arg7 : FVec F S7 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x7 .f32 := Host.absf main_arg6
  let main_cst_8 : FVec F S_ .f32 := constant S_ .f32 0x7F800000#32
  let main_v25 : FVec F S64x7 .f32 := broadcastInDim S64x7 ![] bcast_S_S64x7 main_cst_8
  let main_v26 : IVec S64x7 1 := cmpf .olt main_v24 main_v25
  let main_c_9 : IVec S_ 1 := constantI S_ 1 1#1
  let main_v27 : IVec S_ 1 := (fun x v => Host.reduce IntOp.andi x v reducesTo_S64x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x1433 .f32) (main_arg1 : IVec S2x1600000 32) (main_arg2 : FVec F S1433x64 .f32) (main_arg3 : FVec F S64 .f32) (main_arg4 : FVec F S64x64 .f32) (main_arg5 : FVec F S64 .f32) (main_arg6 : FVec F S64x7 .f32) (main_arg7 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x64 .f32 := Host.absf main_arg2
  let main_cst_0 : FVec F S_ .f32 := constant S_ .f32 0x7F800000#32
  let main_v5 : FVec F S1433x64 .f32 := broadcastInDim S1433x64 ![] bcast_S_S1433x64 main_cst_0
  let main_v6 : IVec S1433x64 1 := cmpf .olt main_v4 main_v5
  let main_c_1 : IVec S_ 1 := constantI S_ 1 1#1
  let main_v7 : IVec S_ 1 := (fun x v => Host.reduce IntOp.andi x v reducesTo_S1433x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x1433 : Shape := ⟨2, ![100000, 1433]⟩
abbrev S2x1600000 : Shape := ⟨2, ![2, 1600000]⟩
abbrev S1433x64 : Shape := ⟨2, ![1433, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x1433 : Shape := ⟨2, ![2000, 1433]⟩
abbrev S2000x64 : Shape := ⟨2, ![2000, 64]⟩
abbrev S1700000x64 : Shape := ⟨2, ![1700000, 64]⟩
abbrev S1x64 : Shape := ⟨2, ![1, 64]⟩
abbrev S1x7 : Shape := ⟨2, ![1, 7]⟩
abbrev S100000x7 : Shape := ⟨2, ![100000, 7]⟩
abbrev S2000x7 : Shape := ⟨2, ![2000, 7]⟩
abbrev S2000 : Shape := ⟨1, ![2000]⟩
abbrev S2000x1 : Shape := ⟨2, ![2000, 1]⟩

abbrev nBuf : Space → Nat
  | .hbm => 96
  | .vmem => 16
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x7, .f32⟩
  | .hbm, ⟨7, _⟩ => ⟨S7, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S1x7, .f32⟩
  | .hbm, ⟨95, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x7, .f32⟩
  | .local _ .vmem, ⟨13, _⟩ => ⟨S1x7, .f32⟩
  | .local _ .vmem, ⟨14, _⟩ => ⟨S2000x7, .f32⟩
  | .local _ .vmem, ⟨15, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x64_S1433x64_0_0 : ∀ a, (![0, 0] : Fin 2 → Nat) a + S1433x64.size a ≤ S1433x64.size a
  h_S1433x64 : 0 < S1433x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S7_S1x7 : S7.ShapeCasts S1x7
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x7_S2000 : S2000x7.Reduces [1] S2000
  shapeCasts_S2000_S2000x1 : S2000.ShapeCasts S2000x1
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x1433_S1433x64_S2000x64_1_0_0_1_n_n_wf : DotDims.WF S2000x1433 S1433x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x64_S64x7_S2000x7_1_0_0_1_n_n_wf : DotDims.WF S2000x64 S64x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x64.size a ≤ S1433x64.size a
  hwx0_1 : ∀ i : grid0.Coords, EltTy.bits .f32 = 32 ∨ (Rect.block (s := S1433x64) S1433x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x7.size a ≤ S64x7.size a
  hwx2_1 : ∀ i : grid2.Coords, EltTy.bits .f32 = 32 ∨ (Rect.block (s := S64x7) S64x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x7.size a ≤ S100000x7.size a
  hwx2_3 : ∀ i : grid2.Coords, EltTy.bits .f32 = 32 ∨ (Rect.block (s := S100000x7) S2000x7.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x1433_S1433x64_S2000x64_1_0_0_1_n_n : DotDims S2000x1433 S1433x64 S2000x64 where
  lhsContracting := [1]
  rhsContracting := [0]
  lhsNonContracting := [0]
  rhsNonContracting := [1]
  lhsBatch := []
  rhsBatch := []
  wf := dot_S2000x1433_S1433x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x7_S2000x7_1_0_0_1_n_n : DotDims S2000x64 S64x7 S2000x7 where
  lhsContracting := [1]
  rhsContracting := [0]
  lhsNonContracting := [0]
  rhsNonContracting := [1]
  lhsBatch := []
  rhsBatch := []
  wf := dot_S2000x64_S64x7_S2000x7_1_0_0_1_n_n_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S2x1600000 : Shape := ⟨2, ![2, 1600000]⟩
abbrev S1433x64 : Shape := ⟨2, ![1433, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x7 : Shape := ⟨2, ![100000, 7]⟩
abbrev S1x7 : Shape := ⟨2, ![1, 7]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x7, .f32⟩
  | .hbm, ⟨7, _⟩ => ⟨S7, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x7, .f32⟩
  | .hbm, ⟨95, _⟩ => ⟨S1x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x7, .f32⟩
  | .hbm, ⟨105, _⟩ => ⟨S100000x7, .f32⟩
  | .hbm, ⟨106, _⟩ => ⟨S100000x7, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x7, .f32⟩
  | .hbm, ⟨111, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1433_S1433x64_S100000x64_1_0_0_1_n_n_wf : DotDims.WF S100000x1433 S1433x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x7_S100000x7_1_0_0_1_n_n_wf : DotDims.WF S100000x64 S64x7 S100000x7 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1433_S1433x64_S100000x64_1_0_0_1_n_n : DotDims S100000x1433 S1433x64 S100000x64 where
  lhsContracting := [1]
  rhsContracting := [0]
  lhsNonContracting := [0]
  rhsNonContracting := [1]
  lhsBatch := []
  rhsBatch := []
  wf := dot_S100000x1433_S1433x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf

class Facts : Prop extends Facts₀ where

variable [Facts]
-- ==== Proof.KernelRun.lean ====
/-
  The kernel program's run, with its result named.

  The program is three grid launches among stretches of host operations.  Every weakly fair execution ends with each
  buffer at the last boundary's contents: the host stretches folded over the launch memory, each launch's arrays at what
  its write-backs leave.  Read at the result buffer this names the result; read at an argument it gives the argument
  back, since no stretch and no launch writes one.
-/
import proofs.«115150_j22428319219871_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    every argument as launched. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunValue

end
-- ==== Proof.HostValues.lean ====
/-
  What the host stretches of the kernel program hold, by name.

  Between its launches the kernel program runs the same host lines as the reference: the edge lists with self loops, the
  degree normalisation, and after each projection the gather, scaling, scatter-add, bias and rectifier.  Here each buffer a
  later step reads is named at each boundary of the run: the edge lists and the normalisation are functions of the edge
  argument alone and are carried unchanged past every launch; no stretch and no launch writes an argument.
-/
import proofs.«115150_j22428319219871_1_alg».proof.Proof.Gen.KernelIdeal.Frame
import proofs.«115150_j22428319219871_1_alg».proof.Proof.RefRead
import Idealize.ShloMosaic.Lib.StableHlo.Run

set_option maxRecDepth 16384

noncomputable section

namespace Cert.KernelIdeal.HostValues

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The arguments, at every boundary -/

theorem entry0_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem entry0_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl

theorem entry0_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem entry0_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem entry0_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem entry0_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem entry0_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem entry0_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

theorem exit0_arg3 : W4 m ρ c (Proc.devRef .tc main_arg3) = m ((c : Thread nD τ).loc main_arg3) :=
  (W4_of_ne m ρ c main_arg3 (by decide)).trans (entry0_arg3 m ρ c)
theorem entry1_arg3 : W6 m ρ c (Proc.devRef .tc main_arg3) = m ((c : Thread nD τ).loc main_arg3) := by
  show StableHlo.after hostOps1_1 (StableHlo.after hostOps1 (W4 m ρ c)) (Proc.devRef .tc main_arg3) = _
  after_results_simp
  exact exit0_arg3 m ρ c

theorem exit0_arg4 : W4 m ρ c (Proc.devRef .tc main_arg4) = m ((c : Thread nD τ).loc main_arg4) :=
  (W4_of_ne m ρ c main_arg4 (by decide)).trans (entry0_arg4 m ρ c)
theorem entry1_arg4 : W6 m ρ c (Proc.devRef .tc main_arg4) = m ((c : Thread nD τ).loc main_arg4) := by
  show StableHlo.after hostOps1_1 (StableHlo.after hostOps1 (W4 m ρ c)) (Proc.devRef .tc main_arg4) = _
  after_results_simp
  exact exit0_arg4 m ρ c

theorem exit0_arg5 : W4 m ρ c (Proc.devRef .tc main_arg5) = m ((c : Thread nD τ).loc main_arg5) :=
  (W4_of_ne m ρ c main_arg5 (by decide)).trans (entry0_arg5 m ρ c)
theorem entry1_arg5 : W6 m ρ c (Proc.devRef .tc main_arg5) = m ((c : Thread nD τ).loc main_arg5) := by
  show StableHlo.after hostOps1_1 (StableHlo.after hostOps1 (W4 m ρ c)) (Proc.devRef .tc main_arg5) = _
  after_results_simp
  exact exit0_arg5 m ρ c

theorem exit0_arg6 : W4 m ρ c (Proc.devRef .tc main_arg6) = m ((c : Thread nD τ).loc main_arg6) :=
  (W4_of_ne m ρ c main_arg6 (by decide)).trans (entry0_arg6 m ρ c)
theorem entry1_arg6 : W6 m ρ c (Proc.devRef .tc main_arg6) = m ((c : Thread nD τ).loc main_arg6) := by
  show StableHlo.after hostOps1_1 (StableHlo.after hostOps1 (W4 m ρ c)) (Proc.devRef .tc main_arg6) = _
  after_results_simp
  exact exit0_arg6 m ρ c

theorem exit0_arg7 : W4 m ρ c (Proc.devRef .tc main_arg7) = m ((c : Thread nD τ).loc main_arg7) :=
  (W4_of_ne m ρ c main_arg7 (by decide)).trans (entry0_arg7 m ρ c)
theorem entry1_arg7 : W6 m ρ c (Proc.devRef .tc main_arg7) = m ((c : Thread nD τ).loc main_arg7) := by
  show StableHlo.after hostOps1_1 (StableHlo.after hostOps1 (W4 m ρ c)) (Proc.devRef .tc main_arg7) = _
  after_results_simp
  exact exit0_arg7 m ρ c

theorem exit1_arg5 : W7 m ρ c (Proc.devRef .tc main_arg5) = m ((c : Thread nD τ).loc main_arg5) :=
  (W7_of_ne m ρ c main_arg5 (by decide)).trans (entry1_arg5 m ρ c)

theorem exit1_arg6 : W7 m ρ c (Proc.devRef .tc main_arg6) = m ((c : Thread nD τ).loc main_arg6) :=
  (W7_of_ne m ρ c main_arg6 (by decide)).trans (entry1_arg6 m ρ c)

theorem exit1_arg7 : W7 m ρ c (Proc.devRef .tc main_arg7) = m ((c : Thread nD τ).loc main_arg7) :=
  (W7_of_ne m ρ c main_arg7 (by decide)).trans (entry1_arg7 m ρ c)

theorem entry2_arg6 : W10 m ρ c (Proc.devRef .tc main_arg6) = m ((c : Thread nD τ).loc main_arg6) := by
  show StableHlo.after hostOps2_2 (StableHlo.after hostOps2_1 (StableHlo.after hostOps2 (W7 m ρ c))) (Proc.devRef .tc main_arg6) = _
  after_results_simp
  exact exit1_arg6 m ρ c

/-! ## The edge lists and the normalisation: functions of the edge argument, carried past every launch -/

theorem entry0_v3 : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl
theorem exit0_v3 : W4 m ρ c (Proc.devRef .tc main_v3) = Cert.ReferenceIdeal.Read.val_main_v3 (F := Ideal) (m ((c : Thread nD τ).loc main_arg1)) :=
  (W4_of_ne m ρ c main_v3 (by decide)).trans (entry0_v3 m ρ c)
theorem entry1_v3 : W6 m ρ c (Proc.devRef .tc main_v3) = Cert.ReferenceIdeal.Read.val_main_v3 (F := Ideal) (m ((c : Thread nD τ).loc main_arg1)) := by
  show StableHlo.after hostOps1_1 (StableHlo.after hostOps1 (W4 m ρ c)) (Proc.devRef .tc main_v3) = _
  after_results_simp
  exact exit0_v3 m ρ c
theorem exit1_v3 : W7 m ρ c (Proc.devRef .tc main_v3) = Cert.ReferenceIdeal.Read.val_main_v3 (F := Ideal) (m ((c : Thread nD τ).loc main_arg1)) :=
  (W7_of_ne m ρ c main_v3 (by decide)).trans (entry1_v3 m ρ c)

theorem entry0_v6 : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl
theorem exit0_v6 : W4 m ρ c (Proc.devRef .tc main_v6) = Cert.ReferenceIdeal.Read.val_main_v6 (F := Ideal) (m ((c : Thread nD τ).loc main_arg1)) :=
  (W4_of_ne m ρ c main_v6 (by decide)).trans (entry0_v6 m ρ c)
theorem entry1_v6 : W6 m ρ c (Proc.devRef .tc main_v6) = Cert.ReferenceIdeal.Read.val_main_v6 (F := Ideal) (m ((c : Thread nD τ).loc main_arg1)) := by
  show StableHlo.after hostOps1_1 (StableHlo.after hostOps1 (W4 m ρ c)) (Proc.devRef .tc main_v6) = _
  after_results_simp
  exact exit0_v6 m ρ c
theorem exit1_v6 : W7 m ρ c (Proc.devRef .tc main_v6) = Cert.ReferenceIdeal.Read.val_main_v6 (F := Ideal) (m ((c : Thread nD τ).loc main_arg1)) :=
  (W7_of_ne m ρ c main_v6 (by decide)).trans (entry1_v6 m ρ c)

/-! ## The host stretches, as functions of what they find

Each lemma takes ANY buffer contents `W` whose operand buffers hold the reference's named stages, and says the stretch's
result buffer then holds the reference's next named stage: the stretch's lines are the reference's own. -/

section Stretches

variable (W : Valuation τ sig (Elt Ideal))
variable (x0 : (⟨Cert.ReferenceIdeal.S100000x1433, .f32⟩ : BufTy).Contents (Elt Ideal)) (x1 : (⟨Cert.ReferenceIdeal.S2x1600000, .i32⟩ : BufTy).Contents (Elt Ideal))
  (x2 : (⟨Cert.ReferenceIdeal.S1433x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal))

/-- The selection line by itself: from any contents, the mask picks the second operand or the scalar, broadcast. -/
theorem where_generic :
    StableHlo.after hostOps0_1 W (Proc.devRef .tc main_v14)
      = (select (W (Proc.devRef .tc main_v12) : (⟨S100000, .i1⟩ : BufTy).Contents (Elt Ideal)) (W (Proc.devRef .tc main_v13) : (⟨S100000, .f32⟩ : BufTy).Contents (Elt Ideal))
          (broadcastInDim S100000 ![] bcast_S_S100000 (W (Proc.devRef .tc main_cst_2) : (⟨S_, .f32⟩ : BufTy).Contents (Elt Ideal))) : (⟨S100000, .f32⟩ : BufTy).Contents (Elt Ideal)) := by
  after_results_simp
  rfl

/-- `where (deg > 0, rsqrt deg, 0)`: the inverse square root of the degrees. -/
theorem where_line (h12 : W (Proc.devRef .tc main_v12) = Cert.ReferenceIdeal.Read.val_main_v12 (F := Ideal) x1)
    (h13 : W (Proc.devRef .tc main_v13) = Cert.ReferenceIdeal.Read.val_main_v13 (F := Ideal) x1)
    (hc : W (Proc.devRef .tc main_cst_2) = Cert.ReferenceIdeal.Read.val_main_cst_2 (F := Ideal)) :
    StableHlo.after hostOps0_1 W (Proc.devRef .tc main_v14) = Cert.ReferenceIdeal.Read.val_main_v14 (F := Ideal) x1 := by
  rw [where_generic, h12, h13, hc]
  rfl

/-- The edge normalisation: the two gathers of the inverse square roots, multiplied. -/
theorem norm_lines (h14 : W (Proc.devRef .tc main_v14) = Cert.ReferenceIdeal.Read.val_main_v14 (F := Ideal) x1)
    (h3 : W (Proc.devRef .tc main_v3) = Cert.ReferenceIdeal.Read.val_main_v3 (F := Ideal) x1)
    (h6 : W (Proc.devRef .tc main_v6) = Cert.ReferenceIdeal.Read.val_main_v6 (F := Ideal) x1) :
    StableHlo.after hostOps0_2 W (Proc.devRef .tc main_v29) = Cert.ReferenceIdeal.Read.val_main_v29 (F := Ideal) x1 := by
  after_results_simp
  rw [h14, h3, h6]
  rfl

/-- First layer: gather, scale, scatter-add, bias. -/
theorem aggregate1 (h30 : W (Proc.devRef .tc main_v30) = Cert.ReferenceIdeal.Read.val_main_v30 (F := Ideal) x0 x2)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h29 : W (Proc.devRef .tc main_v29) = Cert.ReferenceIdeal.Read.val_main_v29 (F := Ideal) x1)
    (hb : W (Proc.devRef .tc main_arg3) = x3) :
    StableHlo.after hostOps1 W (Proc.devRef .tc main_v46) = Cert.ReferenceIdeal.Read.val_main_v46 (F := Ideal) x0 x1 x2 x3 := by
  after_results_simp
  rw [h30, h3, h6, h29, hb]
  rfl

/-- The rectifier line by itself: the maximum with zero, entry by entry. -/
theorem relu1_generic :
    StableHlo.after hostOps1_1 W (Proc.devRef .tc main_v47)
      = (maximumf (F := Ideal) (W (Proc.devRef .tc main_v46) : (⟨S100000x64, .f32⟩ : BufTy).Contents (Elt Ideal))
          (broadcastInDim S100000x64 ![] bcast_S_S100000x64 (constant (F := Ideal) S_ .f32 0x00000000#32)) : (⟨S100000x64, .f32⟩ : BufTy).Contents (Elt Ideal)) := by
  after_results_simp
  rfl

/-- First layer: the rectifier. -/
theorem relu1 (h46 : W (Proc.devRef .tc main_v46) = Cert.ReferenceIdeal.Read.val_main_v46 (F := Ideal) x0 x1 x2 x3) :
    StableHlo.after hostOps1_1 W (Proc.devRef .tc main_v47) = Cert.ReferenceIdeal.Read.val_main_v47 (F := Ideal) x0 x1 x2 x3 := by
  rw [relu1_generic, h46]
  rfl

/-- Second layer: gather, scale, scatter-add, bias. -/
theorem aggregate2 (h48 : W (Proc.devRef .tc main_v48) = Cert.ReferenceIdeal.Read.val_main_v48 (F := Ideal) x0 x1 x2 x3 x4)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h29 : W (Proc.devRef .tc main_v29) = Cert.ReferenceIdeal.Read.val_main_v29 (F := Ideal) x1)
    (hb : W (Proc.devRef .tc main_arg5) = x5) :
    StableHlo.after hostOps2 W (Proc.devRef .tc main_v64) = Cert.ReferenceIdeal.Read.val_main_v64 (F := Ideal) x0 x1 x2 x3 x4 x5 := by
  after_results_simp
  rw [h48, h3, h6, h29, hb]
  rfl

theorem relu2_generic :
    StableHlo.after hostOps2_1 W (Proc.devRef .tc main_v65)
      = (maximumf (F := Ideal) (W (Proc.devRef .tc main_v64) : (⟨S100000x64, .f32⟩ : BufTy).Contents (Elt Ideal))
          (broadcastInDim S100000x64 ![] bcast_S_S100000x64 (constant (F := Ideal) S_ .f32 0x00000000#32)) : (⟨S100000x64, .f32⟩ : BufTy).Contents (Elt Ideal)) := by
  after_results_simp
  rfl

/-- Second layer: the rectifier. -/
theorem relu2 (h64 : W (Proc.devRef .tc main_v64) = Cert.ReferenceIdeal.Read.val_main_v64 (F := Ideal) x0 x1 x2 x3 x4 x5) :
    StableHlo.after hostOps2_1 W (Proc.devRef .tc main_v65) = Cert.ReferenceIdeal.Read.val_main_v65 (F := Ideal) x0 x1 x2 x3 x4 x5 := by
  rw [relu2_generic, h64]
  rfl

/-- The bias of the head, re-laid as one row; the line writes nothing else. -/
theorem bias_row : StableHlo.after hostOps2_2 W (Proc.devRef .tc main_v66)
    = shapeCast S1x7 (W (Proc.devRef .tc main_arg7)) shapeCasts_S7_S1x7 := by
  after_results_simp <;> rfl
theorem bias_row_v65 : StableHlo.after hostOps2_2 W (Proc.devRef .tc main_v65) = W (Proc.devRef .tc main_v65) := by
  after_results_simp
theorem bias_row_arg6 : StableHlo.after hostOps2_2 W (Proc.devRef .tc main_arg6) = W (Proc.devRef .tc main_arg6) := by
  after_results_simp

end Stretches

/-! ## The degree normalisation, carried past every launch -/

theorem lines0_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results_simp <;> rfl
theorem lines0_v13 : W1 m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  after_results_simp <;> rfl
theorem lines0_cst_2 : W1 m ρ c (Proc.devRef .tc main_cst_2) = Cert.ReferenceIdeal.Read.val_main_cst_2 (F := Ideal) := by
  show StableHlo.after hostOps0 (W0 m ρ c) (Proc.devRef .tc main_cst_2) = _
  after_results_simp <;> rfl
theorem where_v14 : W2 m ρ c (Proc.devRef .tc main_v14) = Cert.ReferenceIdeal.Read.val_main_v14 (F := Ideal) (m ((c : Thread nD τ).loc main_arg1)) :=
  where_line (W1 m ρ c) _ (lines0_v12 m ρ c) (lines0_v13 m ρ c) (lines0_cst_2 m ρ c)
theorem where_v3 : W2 m ρ c (Proc.devRef .tc main_v3) = Cert.ReferenceIdeal.Read.val_main_v3 (F := Ideal) (m ((c : Thread nD τ).loc main_arg1)) := by
  show StableHlo.after hostOps0_1 (StableHlo.after hostOps0 (W0 m ρ c)) (Proc.devRef .tc main_v3) = _
  after_results_simp <;> rfl
theorem where_v6 : W2 m ρ c (Proc.devRef .tc main_v6) = Cert.ReferenceIdeal.Read.val_main_v6 (F := Ideal) (m ((c : Thread nD τ).loc main_arg1)) := by
  show StableHlo.after hostOps0_1 (StableHlo.after hostOps0 (W0 m ρ c)) (Proc.devRef .tc main_v6) = _
  after_results_simp <;> rfl

theorem entry0_v29 : W3 m ρ c (Proc.devRef .tc main_v29) = Cert.ReferenceIdeal.Read.val_main_v29 (F := Ideal) (m ((c : Thread nD τ).loc main_arg1)) :=
  norm_lines (W2 m ρ c) _ (where_v14 m ρ c) (where_v3 m ρ c) (where_v6 m ρ c)
theorem exit0_v29 : W4 m ρ c (Proc.devRef .tc main_v29) = Cert.ReferenceIdeal.Read.val_main_v29 (F := Ideal) (m ((c : Thread nD τ).loc main_arg1)) :=
  (W4_of_ne m ρ c main_v29 (by decide)).trans (entry0_v29 m ρ c)
theorem entry1_v29 : W6 m ρ c (Proc.devRef .tc main_v29) = Cert.ReferenceIdeal.Read.val_main_v29 (F := Ideal) (m ((c : Thread nD τ).loc main_arg1)) := by
  show StableHlo.after hostOps1_1 (StableHlo.after hostOps1 (W4 m ρ c)) (Proc.devRef .tc main_v29) = _
  after_results_simp
  exact exit0_v29 m ρ c
theorem exit1_v29 : W7 m ρ c (Proc.devRef .tc main_v29) = Cert.ReferenceIdeal.Read.val_main_v29 (F := Ideal) (m ((c : Thread nD τ).loc main_arg1)) :=
  (W7_of_ne m ρ c main_v29 (by decide)).trans (entry1_v29 m ρ c)

/-- The bias of the head, just before the last host line. -/
theorem lines2_arg7 : W9 m ρ c (Proc.devRef .tc main_arg7) = m ((c : Thread nD τ).loc main_arg7) := by
  show StableHlo.after hostOps2_1 (StableHlo.after hostOps2 (W7 m ρ c)) (Proc.devRef .tc main_arg7) = _
  after_results_simp
  exact exit1_arg7 m ρ c

end Cert.KernelIdeal.HostValues

end
-- ==== Proof.Spec.lean ====
/-
  The two dense steps of the network, over the extended reals: a projection, and the classifier head.

  A projection multiplies a matrix of 100000 rows by a weight matrix of 64 columns: entry `(r, q)` is the sum over `k` of
  `X (r, k) · W (k, q)`.

  A row of hidden features `h` meets the weight matrix `w` and the bias `b`: logit `q` is the sum over `k` of
  `h k · w k q`, plus `b q`.  The row's seven logits are then normalised: each is shifted by the row's maximum
  (taken from −∞ upwards), exponentiated, and divided by the sum of the seven exponentials.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- −∞: the value a row maximum starts from. -/
abbrev negInf : EReal := Ideal.ofBits .f32 0xFF800000#32

/-- Logit `q` of a row: the features against column `q` of the weights, plus the bias. -/
def logit (h : Fin 64 → EReal) (w : Fin 64 → Fin 7 → EReal) (b : Fin 7 → EReal) (q : Fin 7) : EReal :=
  (∑ k : Fin 64, h k * w k q) + b q

/-- The largest of a row's logits, taken from −∞ upwards (and once more against −∞, as both programs do). -/
def rowMax (l : Fin 7 → EReal) : EReal :=
  max negInf ((Finset.univ : Finset (Fin 7)).fold max negInf l)

/-- The normalised row: `exp (l q − max) / Σ_j exp (l j − max)`. -/
def softmaxRow (l : Fin 7 → EReal) (q : Fin 7) : EReal :=
  Ideal.div (Ideal.exp (l q - rowMax l)) (∑ j : Fin 7, Ideal.exp (l j - rowMax l))

/-- A matrix of 100000 rows against a weight matrix of 64 columns, contracting `K` shared coordinates. -/
def project (K : ℕ) (X : (⟨2, ![100000, K]⟩ : Shape).Idx → EReal) (W : (⟨2, ![K, 64]⟩ : Shape).Idx → EReal) :
    (⟨2, ![100000, 64]⟩ : Shape).Idx → EReal :=
  fun i => ∑ k : Fin K, X (ix2 (⟨(i 0).val, (i 0).isLt⟩ : Fin 100000) k) * W (ix2 k (⟨(i 1).val, (i 1).isLt⟩ : Fin 64))

/-- The classifier head on every row: row `r` of the features gives seven logits, normalised. -/
def classify (H : (⟨2, ![100000, 64]⟩ : Shape).Idx → EReal) (W : (⟨2, ![64, 7]⟩ : Shape).Idx → EReal) (b : Fin 7 → EReal) :
    (⟨2, ![100000, 7]⟩ : Shape).Idx → EReal :=
  fun i => softmaxRow (logit (fun k => H (ix2 (⟨(i 0).val, (i 0).isLt⟩ : Fin 100000) k)) (fun k j => W (ix2 k j)) b)
    (⟨(i 1).val, (i 1).isLt⟩ : Fin 7)

end Cert.GcnSpec

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.BlockValues.lean ====
/-
  What one grid point's body computes from its blocks, read entry by entry over the extended reals.

  The two projection bodies multiply a block of 2000 rows by the whole weight matrix: entry `(p, q)` of the result is
  the sum over `k` of `x (p, k) · w (k, q)` (rounding the operands to a narrower format changes nothing here, and the
  accumulator starts at zero).  The classifier body forms the 2000 × 7 logits the same way, adds the bias row, and
  normalises each row: shift by the row's maximum, exponentiate, divide by the row's sum.
-/
import proofs.«115150_j22428319219871_1_alg».proof.Proof.Gen.KernelIdeal.Skeleton
import proofs.«115150_j22428319219871_1_alg».proof.Proof.Spec
import proofs.«115150_j22428319219871_1_alg».proof.Proof.LibPlainProduct
import proofs.«115150_j22428319219871_1_alg».proof.Proof.LibRowFolds
import proofs.«115150_j22428319219871_1_alg».proof.Proof.LibBroadcast
import proofs.«115150_j22428319219871_1_alg».proof.Proof.LibRowsProduct
import Idealize.ShloMosaic.Lib.Pipeline.Value
import Idealize.ShloMosaic.Lib.ValueIdx
import Idealize.ShloMosaic.PureOps.Ideal.Laws

noncomputable section

namespace Cert.KernelIdeal.BlockValues

open Idealize.ShloMosaic Idealize.ShloMosaic.ValueIdx Cert.KernelIdeal Cert.KernelIdeal.Gen

/-- First projection, entry `(p, q)` of a point's result: row `p` of the block against column `q` of the weights. -/
theorem proj0_apply (x : Vec Ideal S2000x1433 .f32) (w : Vec Ideal S1433x64 .f32) (p : Fin 2000) (q : Fin 64) :
    k0_pay1 (F := Ideal) x w (ix2 p q) = ∑ k : Fin 1433, x (ix2 p k) * w (ix2 k q) := by
  unfold k0_pay1
  exact Cert.PlainProduct.matmul_nn_apply dot_S2000x1433_S1433x64_S2000x64_1_0_0_1_n_n.wf none
    (truncf .bf16 x bitsLt_bf16_f32) (truncf .bf16 w bitsLt_bf16_f32) p q

/-- Second projection, entry `(p, q)`: the same sum over 64 hidden features. -/
theorem proj1_apply (x : Vec Ideal S2000x64 .f32) (w : Vec Ideal S64x64 .f32) (p : Fin 2000) (q : Fin 64) :
    k1_pay1 (F := Ideal) x w (ix2 p q) = ∑ k : Fin 64, x (ix2 p k) * w (ix2 k q) := by
  unfold k1_pay1
  rw [shapeCast_self]
  exact Cert.PlainProduct.matmul_nn_apply dot_S2000x64_S64x64_S2000x64_1_0_0_1_n_n.wf none
    (truncf .bf16 x bitsLt_bf16_f32) (truncf .bf16 w bitsLt_bf16_f32) p q

/-- The logits a point's classifier body forms: the block against the weights, plus the bias row on every row. -/
def logits (x : Vec Ideal S2000x64 .f32) (w : Vec Ideal S64x7 .f32) (b : Vec Ideal S1x7 .f32) : FVec Ideal S2000x7 .f32 :=
  addf (matmul dot_S2000x64_S64x7_S2000x7_1_0_0_1_n_n none (truncf .bf16 (shapeCast S2000x64 x shapeCasts_S2000x64_S2000x64) bitsLt_bf16_f32)
      (truncf .bf16 w bitsLt_bf16_f32) (constant S2000x7 .f32 0x00000000#32))
    (broadcastTo S2000x7 (shapeCast S1x7 b shapeCasts_S1x7_S1x7) broadcasts_S1x7_S2000x7)

theorem logits_apply (x : Vec Ideal S2000x64 .f32) (w : Vec Ideal S64x7 .f32) (b : Vec Ideal S1x7 .f32) (p : Fin 2000) (q : Fin 7) :
    logits x w b (ix2 p q)
      = Cert.GcnSpec.logit (fun k => x (ix2 p k)) (fun k j => w (ix2 k j)) (fun j => b (ix2 (0 : Fin 1) j)) q := by
  unfold logits Cert.GcnSpec.logit
  rw [shapeCast_self, shapeCast_self, addf_apply, Cert.RowsProduct.broadcastTo_1n_an_apply]
  refine congrArg (· + b (ix2 (0 : Fin 1) q)) ?_
  exact Cert.PlainProduct.matmul_nn_apply dot_S2000x64_S64x7_S2000x7_1_0_0_1_n_n.wf none
    (truncf .bf16 x bitsLt_bf16_f32) (truncf .bf16 w bitsLt_bf16_f32) p q

/-- Each row of a 2000 × 7 array normalised: what the classifier body does to its logits. -/
def normalise (v9 : FVec Ideal S2000x7 .f32) : FVec Ideal S2000x7 .f32 :=
  have v10 : FVec Ideal S2000 .f32 := multiReduction .maximumf [1] S2000 v9 0xFF800000#32 reduces_S2000x7_S2000 (.inl rfl) rfl
  have cst_6 : Ideal .f32 := Scalar.ofBits .f32 0xFF800000#32
  have v11 : FVec Ideal S2000 .f32 := broadcast S2000 cst_6
  have v12 : FVec Ideal S2000 .f32 := maximumf v11 v10
  have v13 : FVec Ideal S2000x1 .f32 := shapeCast S2000x1 v12 shapeCasts_S2000_S2000x1
  have v14 : FVec Ideal S2000x7 .f32 := broadcastTo S2000x7 v13 broadcasts_S2000x1_S2000x7
  have v15 : FVec Ideal S2000x7 .f32 := subf v9 v14
  have v16 : FVec Ideal S2000x7 .f32 := exp v15
  have v17 : FVec Ideal S2000 .f32 := multiReduction .add [1] S2000 v16 0x00000000#32 reduces_S2000x7_S2000 (.inl rfl) rfl
  have v18 : FVec Ideal S2000x1 .f32 := shapeCast S2000x1 v17 shapeCasts_S2000_S2000x1
  have v19 : FVec Ideal S2000x7 .f32 := broadcastTo S2000x7 v18 broadcasts_S2000x1_S2000x7
  divf v16 v19

/-- The classifier body's result is its logits, normalised row by row. -/
theorem head_eq (x : Vec Ideal S2000x64 .f32) (w : Vec Ideal S64x7 .f32) (b : Vec Ideal S1x7 .f32) :
    k2_pay1 (F := Ideal) x w b = normalise (logits x w b) := rfl

/-- The row maximum the body takes, at row `p`. -/
theorem rowMax_apply (v9 : FVec Ideal S2000x7 .f32) (p : Fin 2000) :
    maximumf (broadcast S2000 (Scalar.ofBits (F := Ideal) .f32 0xFF800000#32))
        (multiReduction .maximumf [1] S2000 v9 0xFF800000#32 reduces_S2000x7_S2000 (.inl rfl) rfl) (ix1 p)
      = Cert.GcnSpec.rowMax (fun j => v9 (ix2 p j)) := by
  unfold Cert.GcnSpec.rowMax
  rw [maximumf_apply, broadcast_apply]
  refine congrArg (max _) ?_
  exact Cert.RowFolds.laneMax_apply v9 0xFF800000#32 reduces_S2000x7_S2000 (.inl rfl) rfl p

/-- A normalised entry `(p, q)`: the row's entry shifted by the row's maximum, exponentiated, over the row's sum. -/
theorem normalise_apply (v9 : FVec Ideal S2000x7 .f32) (p : Fin 2000) (q : Fin 7) :
    normalise v9 (ix2 p q) = Cert.GcnSpec.softmaxRow (fun j => v9 (ix2 p j)) q := by
  have hshift : ∀ j : Fin 7,
      exp (subf v9 (broadcastTo S2000x7 (shapeCast S2000x1 (maximumf (broadcast S2000 (Scalar.ofBits (F := Ideal) .f32 0xFF800000#32))
          (multiReduction .maximumf [1] S2000 v9 0xFF800000#32 reduces_S2000x7_S2000 (.inl rfl) rfl)) shapeCasts_S2000_S2000x1)
          broadcasts_S2000x1_S2000x7)) (ix2 p j)
        = Ideal.exp (v9 (ix2 p j) - Cert.GcnSpec.rowMax (fun j => v9 (ix2 p j))) := by
    intro j
    show Ideal.exp (subf v9 _ (ix2 p j)) = _
    rw [subf_apply, Cert.Layout.broadcastTo_a1_ab_apply, Cert.Layout.shapeCast_col_apply, rowMax_apply]
  unfold normalise Cert.GcnSpec.softmaxRow
  dsimp only
  rw [divf_apply, hshift q, Cert.Layout.broadcastTo_a1_ab_apply, Cert.Layout.shapeCast_col_apply]
  refine congrArg (Ideal.div _) ?_
  refine (Cert.RowFolds.laneSum_apply _ 0x00000000#32 reduces_S2000x7_S2000 (.inl rfl) rfl p).trans ?_
  exact Finset.sum_congr rfl fun j _ => hshift j

/-- Entry `(p, q)` of a point's classifier result: row `p`'s logits, normalised, at `q`. -/
theorem head_apply (x : Vec Ideal S2000x64 .f32) (w : Vec Ideal S64x7 .f32) (b : Vec Ideal S1x7 .f32) (p : Fin 2000) (q : Fin 7) :
    k2_pay1 (F := Ideal) x w b (ix2 p q)
      = Cert.GcnSpec.softmaxRow (Cert.GcnSpec.logit (fun k => x (ix2 p k)) (fun k j => w (ix2 k j)) (fun j => b (ix2 (0 : Fin 1) j))) q := by
  rw [head_eq, normalise_apply]
  exact congrArg (Cert.GcnSpec.softmaxRow · q) (funext fun j => logits_apply x w b p j)

end Cert.KernelIdeal.BlockValues

end
-- ==== Proof.RegionValues.lean ====
/-
  From a launch's blocks to its result array.

  Each of the three launches walks fifty grid points; point `t` reads rows `2000 t … 2000 t + 1999` of its row operand
  (and the whole of its small operands) and writes the same rows of its result.  So the result array, after the launch,
  is ONE function of the operand arrays as the launch found them: the projection of the row operand by the weights for the
  first two launches, the classifier head for the third.  Here: what a point writes back is that function read through the
  point's block; the fifty blocks cover the result array; hence the array.
-/
import proofs.«115150_j22428319219871_1_alg».proof.Proof.Gen.KernelIdeal.Frame
import proofs.«115150_j22428319219871_1_alg».proof.Proof.BlockValues
import proofs.«115150_j22428319219871_1_alg».proof.Proof.Spec
import Idealize.ShloMosaic.Lib.Pipeline.Value
import Idealize.ShloMosaic.Lib.ValueIdx

set_option maxRecDepth 16384

noncomputable section

namespace Cert.KernelIdeal.RegionValues

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-! ## Launch 0: the first projection -/

/-- The printed index maps, decided over the fifty points: the row operand and the result move with the point, the
    weights stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point's result against the whole-array projection: if the point's row block is rows `2000 tv + ·` of `X` and its
    weight block is `W`, then entry `y` of what the body computes is the projection at row `2000 tv + y 0`. -/
theorem point0 (X : S100000x1433.Idx → EReal) (W : S1433x64.Idx → EReal) (x : Vec Ideal S2000x1433 .f32) (w : Vec Ideal S1433x64 .f32)
    (tv : ℕ) (hx : ∀ (p : Fin 2000) (k : Fin 1433) (r : Fin 100000), r.val = tv * 2000 + p.val → x (ix2 p k) = X (ix2 r k))
    (hw : ∀ y, w y = W y) (y : S2000x64.Idx) (i : S100000x64.Idx)
    (hi0 : (i 0).val = tv * 2000 + (y 0).val) (hi1 : (i 1).val = (y 1).val) :
    k0_pay1 (F := Ideal) x w y = project 1433 X W i := by
  obtain ⟨p, q, rfl⟩ : ∃ (p : Fin 2000) (q : Fin 64), y = ix2 p q := ⟨y 0, y 1, eq_ix2 y⟩
  rw [BlockValues.proj0_apply]
  unfold project
  refine Finset.sum_congr rfl fun k _ => ?_
  rw [hx p k ⟨(i 0).val, (i 0).isLt⟩ hi0, hw]
  refine congrArg (fun z : Fin 64 => X (ix2 (⟨(i 0).val, (i 0).isLt⟩ : Fin 100000) k) * W (ix2 k z)) (Fin.ext ?_)
  exact hi1.symm

/-- WHAT POINT `t` WRITES BACK is block `t` of the projection of the operand arrays as the launch finds them. -/
theorem flushed0 (c : Dev nD) (t : Fin cfg0.N) :
    (dat0 V c).flushed 2 t = ((cfg0.win 2).blk t).view.read (Elt Ideal) (project 1433 (V c main_arg0) (V c main_arg2)) := by
  show (cfg0.win 2).cut (grid0.coords t) ((dat0 V c).after 2 t) = _
  rw [after0_2]
  unfold out0_2
  rw [View.canon_unit_zero hz]
  simp only [View.ld_unit_zero (S := S2000x1433) hz, View.ld_unit_zero (S := S1433x64) hz]
  obtain ⟨e00, e01, e10, e11, e20, e21⟩ := idx0 t
  funext j
  refine point0 (V c main_arg0) (V c main_arg2) (iblk0 V c 0 t) (iblk0 V c 1 t) t.val ?_ ?_ j _ ?_ ?_
  · intro p k r hr
    unfold iblk0
    rw [View.read_apply]
    show V c main_arg0 _ = V c main_arg0 _
    refine congrArg (V c main_arg0) (funext fun a => Fin.ext ?_)
    match a with
    | ⟨0, _⟩ => show win0_0.index t (0 : Fin 2) * 2000 + 1 * p.val = r.val; rw [e00, hr]; omega
    | ⟨1, _⟩ => show win0_0.index t (1 : Fin 2) * 1433 + 1 * k.val = k.val; rw [e01]; omega
  · intro y
    unfold iblk0
    rw [View.read_apply]
    show V c main_arg2 _ = V c main_arg2 _
    refine congrArg (V c main_arg2) (funext fun a => Fin.ext ?_)
    match a with
    | ⟨0, _⟩ => show win0_1.index t (0 : Fin 2) * 1433 + 1 * (y 0).val = (y 0).val; rw [e10]; omega
    | ⟨1, _⟩ => show win0_1.index t (1 : Fin 2) * 64 + 1 * (y 1).val = (y 1).val; rw [e11]; omega
  · show win0_2.index t (0 : Fin 2) * 2000 + 1 * (j 0).val = t.val * 2000 + (j 0).val; rw [e20]; omega
  · show win0_2.index t (1 : Fin 2) * 64 + 1 * (j 1).val = (j 1).val; rw [e21]; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Row `r` of the result is written by point `r / 2000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, e20, e21⟩ := idx0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e21]; omega

/-- THE RESULT ARRAY of the first launch: the projection of the operand arrays as the launch finds them. -/
theorem array0 (c : Dev nD) : (dat0 V c).arrAt 2 cfg0.N = project 1433 (V c main_arg0) (V c main_arg2) :=
  (dat0 V c).arrAt_eq_of_cover 2 _ (fun t _ => flushed0 V c t) cover0

/-! ## Launch 1: the second projection -/

/-- The printed index maps, decided over the fifty points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One point's result against the whole-array projection over 64 hidden features. -/
theorem point1 (X : S100000x64.Idx → EReal) (W : S64x64.Idx → EReal) (x : Vec Ideal S2000x64 .f32) (w : Vec Ideal S64x64 .f32)
    (tv : ℕ) (hx : ∀ (p : Fin 2000) (k : Fin 64) (r : Fin 100000), r.val = tv * 2000 + p.val → x (ix2 p k) = X (ix2 r k))
    (hw : ∀ y, w y = W y) (y : S2000x64.Idx) (i : S100000x64.Idx)
    (hi0 : (i 0).val = tv * 2000 + (y 0).val) (hi1 : (i 1).val = (y 1).val) :
    k1_pay1 (F := Ideal) x w y = project 64 X W i := by
  obtain ⟨p, q, rfl⟩ : ∃ (p : Fin 2000) (q : Fin 64), y = ix2 p q := ⟨y 0, y 1, eq_ix2 y⟩
  rw [BlockValues.proj1_apply]
  unfold project
  refine Finset.sum_congr rfl fun k _ => ?_
  rw [hx p k ⟨(i 0).val, (i 0).isLt⟩ hi0, hw]
  refine congrArg (fun z : Fin 64 => X (ix2 (⟨(i 0).val, (i 0).isLt⟩ : Fin 100000) k) * W (ix2 k z)) (Fin.ext ?_)
  exact hi1.symm

/-- WHAT POINT `t` WRITES BACK is block `t` of the projection of the operand arrays as the launch finds them. -/
theorem flushed1 (c : Dev nD) (t : Fin cfg1.N) :
    (dat1 V c).flushed 2 t = ((cfg1.win 2).blk t).view.read (Elt Ideal) (project 64 (V c main_v47) (V c main_arg4)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨e00, e01, e10, e11, e20, e21⟩ := idx1 t
  funext j
  refine point1 (V c main_v47) (V c main_arg4) (iblk1 V c 0 t) (iblk1 V c 1 t) t.val ?_ ?_ j _ ?_ ?_
  · intro p k r hr
    unfold iblk1
    rw [View.read_apply]
    show V c main_v47 _ = V c main_v47 _
    refine congrArg (V c main_v47) (funext fun a => Fin.ext ?_)
    match a with
    | ⟨0, _⟩ => show win1_0.index t (0 : Fin 2) * 2000 + 1 * p.val = r.val; rw [e00, hr]; omega
    | ⟨1, _⟩ => show win1_0.index t (1 : Fin 2) * 64 + 1 * k.val = k.val; rw [e01]; omega
  · intro y
    unfold iblk1
    rw [View.read_apply]
    show V c main_arg4 _ = V c main_arg4 _
    refine congrArg (V c main_arg4) (funext fun a => Fin.ext ?_)
    match a with
    | ⟨0, _⟩ => show win1_1.index t (0 : Fin 2) * 64 + 1 * (y 0).val = (y 0).val; rw [e10]; omega
    | ⟨1, _⟩ => show win1_1.index t (1 : Fin 2) * 64 + 1 * (y 1).val = (y 1).val; rw [e11]; omega
  · show win1_2.index t (0 : Fin 2) * 2000 + 1 * (j 0).val = t.val * 2000 + (j 0).val; rw [e20]; omega
  · show win1_2.index t (1 : Fin 2) * 64 + 1 * (j 1).val = (j 1).val; rw [e21]; omega

theorem mem_blk1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- Row `r` of the result is written by point `r / 2000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, e20, e21⟩ := idx1 ⟨(i 0).val / 2000, hlt⟩
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, hlt⟩ (1 : Fin 2) * 64 ≤ (i 1).val ∧ (i 1).val < win1_2.index ⟨(i 0).val / 2000, hlt⟩ (1 : Fin 2) * 64 + 64
    rw [e21]; omega

/-- THE RESULT ARRAY of the second launch: the projection of the operand arrays as the launch finds them. -/
theorem array1 (c : Dev nD) : (dat1 V c).arrAt 2 cfg1.N = project 64 (V c main_v47) (V c main_arg4) :=
  (dat1 V c).arrAt_eq_of_cover 2 _ (fun t _ => flushed1 V c t) cover1

/-! ## Launch 2: the classifier head -/

/-- The printed index maps, decided over the fifty points: the features and the result move with the point, the weights
    and the bias row stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One point's result against the whole-array head: if the point's feature block is rows `2000 tv + ·` of `H`, its weight
    block is `W` and its bias block the one row `B`, entry `y` of what the body computes is the head at row `2000 tv + y 0`. -/
theorem point2 (H : S100000x64.Idx → EReal) (W : S64x7.Idx → EReal) (B : S1x7.Idx → EReal)
    (x : Vec Ideal S2000x64 .f32) (w : Vec Ideal S64x7 .f32) (b : Vec Ideal S1x7 .f32)
    (tv : ℕ) (hx : ∀ (p : Fin 2000) (k : Fin 64) (r : Fin 100000), r.val = tv * 2000 + p.val → x (ix2 p k) = H (ix2 r k))
    (hw : ∀ y, w y = W y) (hb : ∀ y, b y = B y) (y : S2000x7.Idx) (i : S100000x7.Idx)
    (hi0 : (i 0).val = tv * 2000 + (y 0).val) (hi1 : (i 1).val = (y 1).val) :
    k2_pay1 (F := Ideal) x w b y = classify H W (fun j => B (ix2 (0 : Fin 1) j)) i := by
  obtain ⟨p, q, rfl⟩ : ∃ (p : Fin 2000) (q : Fin 7), y = ix2 p q := ⟨y 0, y 1, eq_ix2 y⟩
  rw [BlockValues.head_apply]
  unfold classify
  have hl : logit (fun k => x (ix2 p k)) (fun k j => w (ix2 k j)) (fun j => b (ix2 (0 : Fin 1) j))
      = logit (fun k => H (ix2 (⟨(i 0).val, (i 0).isLt⟩ : Fin 100000) k)) (fun k j => W (ix2 k j)) (fun j => B (ix2 (0 : Fin 1) j)) := by
    refine congr (congr (congrArg logit ?_) ?_) ?_
    · exact funext fun k => hx p k ⟨(i 0).val, (i 0).isLt⟩ hi0
    · exact funext fun k => funext fun j => hw _
    · exact funext fun j => hb _
  rw [hl]
  exact congrArg (softmaxRow _) (Fin.ext hi1.symm)

/-- WHAT POINT `t` WRITES BACK is block `t` of the head of the operand arrays as the launch finds them. -/
theorem flushed2 (c : Dev nD) (t : Fin cfg2.N) :
    (dat2 V c).flushed 3 t = ((cfg2.win 3).blk t).view.read (Elt Ideal)
      (classify (V c main_v65) (V c main_arg6) (fun j => (V c main_v66 : S1x7.Idx → EReal) (ix2 (0 : Fin 1) j))) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x7) hz, View.ld_unit_zero (S := S1x7) hz]
  obtain ⟨e00, e01, e10, e11, e20, e21, e30, e31⟩ := idx2 t
  funext j
  refine point2 (V c main_v65) (V c main_arg6) (V c main_v66) (iblk2 V c 0 t) (iblk2 V c 1 t) (iblk2 V c 2 t) t.val ?_ ?_ ?_ j _ ?_ ?_
  · intro p k r hr
    unfold iblk2
    rw [View.read_apply]
    show V c main_v65 _ = V c main_v65 _
    refine congrArg (V c main_v65) (funext fun a => Fin.ext ?_)
    match a with
    | ⟨0, _⟩ => show win2_0.index t (0 : Fin 2) * 2000 + 1 * p.val = r.val; rw [e00, hr]; omega
    | ⟨1, _⟩ => show win2_0.index t (1 : Fin 2) * 64 + 1 * k.val = k.val; rw [e01]; omega
  · intro y
    unfold iblk2
    rw [View.read_apply]
    show V c main_arg6 _ = V c main_arg6 _
    refine congrArg (V c main_arg6) (funext fun a => Fin.ext ?_)
    match a with
    | ⟨0, _⟩ => show win2_1.index t (0 : Fin 2) * 64 + 1 * (y 0).val = (y 0).val; rw [e10]; omega
    | ⟨1, _⟩ => show win2_1.index t (1 : Fin 2) * 7 + 1 * (y 1).val = (y 1).val; rw [e11]; omega
  · intro y
    unfold iblk2
    rw [View.read_apply]
    show V c main_v66 _ = V c main_v66 _
    refine congrArg (V c main_v66) (funext fun a => Fin.ext ?_)
    match a with
    | ⟨0, _⟩ => show win2_2.index t (0 : Fin 2) * 1 + 1 * (y 0).val = (y 0).val; rw [e20]; omega
    | ⟨1, _⟩ => show win2_2.index t (1 : Fin 2) * 7 + 1 * (y 1).val = (y 1).val; rw [e21]; omega
  · show win2_3.index t (0 : Fin 2) * 2000 + 1 * (j 0).val = t.val * 2000 + (j 0).val; rw [e30]; omega
  · show win2_3.index t (1 : Fin 2) * 7 + 1 * (j 1).val = (j 1).val; rw [e31]; omega

theorem mem_blk2 (t : Fin cfg2.N) (i : S100000x7.Idx) :
    i ∈ ((cfg2.win 3).blk t).view.set ↔ ∀ a : Fin 2, win2_3.index t a * S2000x7.size a ≤ (i a).val ∧ (i a).val < win2_3.index t a * S2000x7.size a + S2000x7.size a := by
  show i ∈ ((View.whole main_v67).slice (win2_3.rect t)).set ↔ _
  rw [View.set_slice_whole, Rect.mem_set_unit]
  exact Iff.rfl

/-- Row `r` of the result is written by point `r / 2000`. -/
theorem cover2 (i : S100000x7.Idx) : ∃ t : Fin cfg2.N, (cfg2.win 3).flush t = true ∧ i ∈ ((cfg2.win 3).blk t).view.set := by
  have hi0 : (i 0).val < 100000 := (i 0).isLt
  have hi1 : (i 1).val < 7 := (i 1).isLt
  have hN : cfg2.N = 50 := N_2
  have hlt : (i 0).val / 2000 < cfg2.N := by rw [hN]; omega
  obtain ⟨-, -, -, -, -, -, e30, e31⟩ := idx2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, hlt⟩ (1 : Fin 2) * 7 ≤ (i 1).val ∧ (i 1).val < win2_3.index ⟨(i 0).val / 2000, hlt⟩ (1 : Fin 2) * 7 + 7
    rw [e31]; omega

/-- THE RESULT ARRAY of the third launch: the classifier head of the operand arrays as the launch finds them. -/
theorem array2 (c : Dev nD) : (dat2 V c).arrAt 3 cfg2.N
    = classify (V c main_v65) (V c main_arg6) (fun j => (V c main_v66 : S1x7.Idx → EReal) (ix2 (0 : Fin 1) j)) :=
  (dat2 V c).arrAt_eq_of_cover 3 _ (fun t _ => flushed2 V c t) cover2

end Cert.KernelIdeal.RegionValues

end
-- ==== Proof.RefIndex.lean ====
/-
  The reference's dense steps, read entry by entry.

  The reference multiplies whole matrices on the host.  Read at an index, its first product is the projection of the node
  features by the first weights, its second the projection of the first layer's output by the second weights, and its last
  lines — a product with the output weights, the bias, and a softmax over each row of seven — the classifier head of the
  second layer's output.
-/
import proofs.«115150_j22428319219871_1_alg».proof.Proof.RefRead
import proofs.«115150_j22428319219871_1_alg».proof.Proof.Spec
import proofs.«115150_j22428319219871_1_alg».proof.Proof.LibRowFolds
import Idealize.ShloMosaic.Lib.ValueIdx
import Idealize.ShloMosaic.PureOps.Ideal.Laws

noncomputable section

namespace Cert.ReferenceIdeal.RefIndex

open Idealize.ShloMosaic Idealize.ShloMosaic.ValueIdx
open Cert.ReferenceIdeal Cert.ReferenceIdeal.Gen Cert.ReferenceIdeal.Read Cert.GcnSpec

variable (x0 : (⟨S100000x1433, .f32⟩ : BufTy).Contents (Elt Ideal)) (x1 : (⟨S2x1600000, .i32⟩ : BufTy).Contents (Elt Ideal))
  (x2 : (⟨S1433x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x7, .f32⟩ : BufTy).Contents (Elt Ideal)) (x7 : (⟨S7, .f32⟩ : BufTy).Contents (Elt Ideal))

/-- The reference's first product is the projection of the features by the first weights. -/
theorem first_projection : project 1433 x0 x2 = val_main_v30 (F := Ideal) x0 x2 := by
  funext i
  rw [val_main_v30_apply]
  unfold project
  refine Finset.sum_congr rfl fun k _ => ?_
  have hl : ix2 (⟨(i 0).val, (i 0).isLt⟩ : Fin 100000) k = lidx_main_v30 i k :=
    funext fun a => by match a with | ⟨0, _⟩ => rfl | ⟨1, _⟩ => rfl
  have hr : ix2 k (⟨(i 1).val, (i 1).isLt⟩ : Fin 64) = ridx_main_v30 i k :=
    funext fun a => by match a with | ⟨0, _⟩ => rfl | ⟨1, _⟩ => rfl
  rw [hl, hr]

/-- The reference's second product is the projection of the first layer's output by the second weights. -/
theorem second_projection :
    project 64 (val_main_v47 (F := Ideal) x0 x1 x2 x3) x4 = val_main_v48 (F := Ideal) x0 x1 x2 x3 x4 := by
  funext i
  rw [val_main_v48_apply]
  unfold project
  refine Finset.sum_congr rfl fun k _ => ?_
  have hl : ix2 (⟨(i 0).val, (i 0).isLt⟩ : Fin 100000) k = lidx_main_v48 i k :=
    funext fun a => by match a with | ⟨0, _⟩ => rfl | ⟨1, _⟩ => rfl
  have hr : ix2 k (⟨(i 1).val, (i 1).isLt⟩ : Fin 64) = ridx_main_v48 i k :=
    funext fun a => by match a with | ⟨0, _⟩ => rfl | ⟨1, _⟩ => rfl
  rw [hl, hr]

/-- The reference's logits at `(r, q)`: row `r` of the second layer's output against column `q` of the output weights,
    plus the bias. -/
theorem logits_apply (r : Fin 100000) (q : Fin 7) :
    val_main_v69 (F := Ideal) x0 x1 x2 x3 x4 x5 x6 x7 (ix2 r q)
      = logit (fun k => val_main_v65 (F := Ideal) x0 x1 x2 x3 x4 x5 (ix2 r k)) (fun k j => x6 (ix2 k j)) (fun j => x7 (ix1 j)) q := by
  rw [val_main_v69_apply, val_main_v66_apply, val_main_v68_apply, val_main_v67_apply]
  unfold logit
  have hb : idx_main_v67 (idx_main_v68 (ix2 r q)) = ix1 q := funext fun a => by match a with | ⟨0, _⟩ => rfl
  rw [hb]
  refine congrArg (· + x7 (ix1 q)) (Finset.sum_congr rfl fun k _ => ?_)
  have hl : lidx_main_v66 (ix2 r q) k = ix2 r k := funext fun a => by match a with | ⟨0, _⟩ => rfl | ⟨1, _⟩ => rfl
  have hr : ridx_main_v66 (ix2 r q) k = ix2 k q := funext fun a => by match a with | ⟨0, _⟩ => rfl | ⟨1, _⟩ => rfl
  rw [hl, hr]

/-- The reference's row maximum at row `r`. -/
theorem rowMax_apply (r : Fin 100000) :
    val_main_v72 (F := Ideal) x0 x1 x2 x3 x4 x5 x6 x7 (ix1 r) = rowMax (fun j => val_main_v69 (F := Ideal) x0 x1 x2 x3 x4 x5 x6 x7 (ix2 r j)) := by
  rw [val_main_v72_apply, val_main_v71_apply, val_main_cst_13_apply]
  unfold val_main_v70 rowMax
  generalize val_main_v69 (F := Ideal) x0 x1 x2 x3 x4 x5 x6 x7 = L
  have hred : (⟨2, ![100000, 7]⟩ : Shape).Reduces [1] ⟨1, ![100000]⟩ := by decide
  have hfold := Cert.RowFolds.hostFold_apply (α := EReal) (a := 100000) (b := 7) (FloatOps.maximumf (F := Ideal) (φ := .f32)) L
    (val_main_cst_12 (F := Ideal)) reducesTo_S100000x7_S100000_d1 hred h_S_ r
  rw [hfold]
  rfl

/-- The reference's shifted exponential at `(r, q)`. -/
theorem exp_apply (r : Fin 100000) (q : Fin 7) :
    val_main_v76 (F := Ideal) x0 x1 x2 x3 x4 x5 x6 x7 (ix2 r q)
      = Ideal.exp (val_main_v69 (F := Ideal) x0 x1 x2 x3 x4 x5 x6 x7 (ix2 r q) - rowMax (fun j => val_main_v69 (F := Ideal) x0 x1 x2 x3 x4 x5 x6 x7 (ix2 r j))) := by
  rw [val_main_v76_apply, val_main_v75_apply, val_main_v74_apply, val_main_v73_apply]
  have hi : idx_main_v73 (idx_main_v74 (ix2 r q)) = ix1 r := funext fun a => by match a with | ⟨0, _⟩ => rfl
  rw [hi, rowMax_apply]
  generalize val_main_v69 (F := Ideal) x0 x1 x2 x3 x4 x5 x6 x7 = L
  rfl

/-- The reference's last lines are the classifier head of the second layer's output. -/
theorem head :
    classify (val_main_v65 (F := Ideal) x0 x1 x2 x3 x4 x5) x6 (fun j => x7 (ix1 j)) = val_main_v80 (F := Ideal) x0 x1 x2 x3 x4 x5 x6 x7 := by
  funext i
  obtain ⟨r, q, rfl⟩ : ∃ (r : Fin 100000) (q : Fin 7), i = ix2 r q := ⟨i 0, i 1, eq_ix2 i⟩
  rw [val_main_v80_apply, val_main_v79_apply, val_main_v78_apply, val_main_v77_apply, val_main_cst_14_apply]
  have hi : idx_main_v78 (idx_main_v79 (ix2 r q)) = ix1 r := funext fun a => by match a with | ⟨0, _⟩ => rfl
  rw [hi, exp_apply]
  have hs : ∀ k : Fin 7, idx_main_v77 (ix1 r) k = ix2 r k := fun k => funext fun a => by match a with | ⟨0, _⟩ => rfl | ⟨1, _⟩ => rfl
  simp only [hs, exp_apply, logits_apply]
  generalize val_main_v65 (F := Ideal) x0 x1 x2 x3 x4 x5 = H
  simp only [Ideal.hostDivf_def, Ideal.ofBits_def, Ideal.ofBits_zero_f32, zero_add]
  rfl

end Cert.ReferenceIdeal.RefIndex

end
-- ==== Proof.KernelValue.lean ====
/-
  The kernel program's result, named.

  Boundary by boundary: the first launch leaves the projection of the node features; the host lines after it aggregate,
  add the bias and rectify; the second launch projects that; the same host lines again; the third launch applies the
  classifier head.  At every step the buffer holds what the reference's corresponding line computes from the
  arguments, so the result buffer ends at the reference's last stage read at the kernel program's arguments.
-/
import proofs.«115150_j22428319219871_1_alg».proof.Proof.HostValues
import proofs.«115150_j22428319219871_1_alg».proof.Proof.RegionValues
import proofs.«115150_j22428319219871_1_alg».proof.Proof.RefIndex
import proofs.«115150_j22428319219871_1_alg».proof.Proof.LibBroadcast

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.GcnSpec

variable (m : (ℓ : Loc nD τ sig) → Buf (Elt Ideal) ℓ) (ρ : Dev nD → PrngReg) (c : Dev nD)

/-- After the first launch: the projection of the node features by the first weights. -/
theorem exit0_v30 : W4 m ρ c (Proc.devRef .tc main_v30) = Cert.ReferenceIdeal.Read.val_main_v30 (F := Ideal) (m ((c : Thread nD τ).loc main_arg0)) (m ((c : Thread nD τ).loc main_arg2)) := by
  refine (W4_arr m ρ c 2).trans ((RegionValues.array0 (V3 m ρ) c).trans ?_)
  show project 1433 (W3 m ρ c (Proc.devRef .tc main_arg0)) (W3 m ρ c (Proc.devRef .tc main_arg2)) = _
  rw [HostValues.entry0_arg0 m ρ c, HostValues.entry0_arg2 m ρ c]
  exact Cert.ReferenceIdeal.RefIndex.first_projection _ _

/-- Before the second launch: the first layer's output (aggregated, biased, rectified). -/
theorem entry1_v47 : W6 m ρ c (Proc.devRef .tc main_v47) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  exact HostValues.relu1 (W5 m ρ c) _ _ _ _
    (HostValues.aggregate1 (W4 m ρ c) _ _ _ _ (exit0_v30 m ρ c) (HostValues.exit0_v3 m ρ c) (HostValues.exit0_v6 m ρ c)
      (HostValues.exit0_v29 m ρ c) (HostValues.exit0_arg3 m ρ c))

/-- After the second launch: the projection of the first layer's output by the second weights. -/
theorem exit1_v48 : W7 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((RegionValues.array1 (V6 m ρ) c).trans ?_)
  show project 64 (W6 m ρ c (Proc.devRef .tc main_v47)) (W6 m ρ c (Proc.devRef .tc main_arg4)) = _
  rw [entry1_v47 m ρ c, HostValues.entry1_arg4 m ρ c]
  exact Cert.ReferenceIdeal.RefIndex.second_projection _ _ _ _ _

/-- Before the third launch: the second layer's output. -/
theorem entry2_v65 : W10 m ρ c (Proc.devRef .tc main_v65) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (HostValues.bias_row_v65 (W9 m ρ c)).trans (HostValues.relu2 (W8 m ρ c) _ _ _ _ _ _
    (HostValues.aggregate2 (W7 m ρ c) _ _ _ _ _ _ (exit1_v48 m ρ c) (HostValues.exit1_v3 m ρ c) (HostValues.exit1_v6 m ρ c)
      (HostValues.exit1_v29 m ρ c) (HostValues.exit1_arg5 m ρ c)))

/-- Before the third launch: the bias, re-laid as one row. -/
theorem entry2_v66 : W10 m ρ c (Proc.devRef .tc main_v66) = shapeCast S1x7 (m ((c : Thread nD τ).loc main_arg7)) shapeCasts_S7_S1x7 := by
  exact (HostValues.bias_row (W9 m ρ c)).trans
    (congrArg (fun z => shapeCast S1x7 z shapeCasts_S7_S1x7) (HostValues.lines2_arg7 m ρ c))

theorem entry2_bias (j : Fin 7) :
    (W10 m ρ c (Proc.devRef .tc main_v66) : S1x7.Idx → EReal) (ix2 (0 : Fin 1) j) = ((m ((c : Thread nD τ).loc main_arg7)) : S7.Idx → EReal) (ix1 j) := by
  rw [entry2_v66 m ρ c]
  exact Cert.Layout.shapeCast_row_apply _ _ j

/-- THE RESULT: after the third launch the result buffer holds the reference's last stage of the arguments. -/
theorem result : W11 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ((RegionValues.array2 (V10 m ρ) c).trans ?_)
  show classify (W10 m ρ c (Proc.devRef .tc main_v65)) (W10 m ρ c (Proc.devRef .tc main_arg6))
      (fun j => (W10 m ρ c (Proc.devRef .tc main_v66) : S1x7.Idx → EReal) (ix2 (0 : Fin 1) j)) = _
  rw [entry2_v65 m ρ c, HostValues.entry2_arg6 m ρ c,
    show (fun j => (W10 m ρ c (Proc.devRef .tc main_v66) : S1x7.Idx → EReal) (ix2 (0 : Fin 1) j))
      = (fun j => ((m ((c : Thread nD τ).loc main_arg7)) : S7.Idx → EReal) (ix1 j)) from funext (entry2_bias m ρ c)]
  exact Cert.ReferenceIdeal.RefIndex.head _ _ _ _ _ _ _ _

end Cert.KernelIdeal.KernelValue

end
-- ==== Proof.lean ====
/-
  A two-layer graph convolution with a softmax head, computed two ways, equal over the extended reals.

  Both programs build the edge lists with self loops, the symmetric degree normalisation, and for each layer the
  aggregation `relu (scatter-add (gather (h W) · norm) + b)`, with the same host lines.  They differ in the three dense
  steps only: the reference multiplies whole matrices and normalises the logits on the host; the kernel program runs each
  product as a grid launch over blocks of 2000 rows, the last one fused with the bias and the row-wise softmax.  Read over
  the extended reals a launch's result array is the whole-matrix product (each entry the same sum over the shared
  coordinate, in the same order), and the fused head is the reference's product, bias and softmax entry by entry.  So after
  every line the kernel program's buffer holds what the reference's corresponding line computes, and the results
  agree.  The only arithmetic used is that a sum started from zero is the sum; the precondition (finite inputs) is not
  needed for the equality.

  The frames of the two kernel programs are the generated frame certificates; the reference's frame is its run with the
  result dropped; the idealisation rewrote nothing.
-/
import proofs.«115150_j22428319219871_1_alg».proof.Defs
import proofs.«115150_j22428319219871_1_alg».proof.Proof.Gen.Kernel
import proofs.«115150_j22428319219871_1_alg».proof.Proof.Gen.Kernel.Frame
import proofs.«115150_j22428319219871_1_alg».proof.Proof.Gen.KernelIdeal
import proofs.«115150_j22428319219871_1_alg».proof.Proof.Gen.KernelIdeal.Frame
import proofs.«115150_j22428319219871_1_alg».proof.Proof.Gen.ReferenceIdeal
import proofs.«115150_j22428319219871_1_alg».proof.Proof.Gen.Pre_finite_inputs
import proofs.«115150_j22428319219871_1_alg».proof.Proof.RefRead
import proofs.«115150_j22428319219871_1_alg».proof.Proof.KernelRun
import proofs.«115150_j22428319219871_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's last stage read at the (agreeing) arguments. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v80_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
